-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S64x128 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S1x64 : Shape := ⟨2, ![1, 64]⟩
abbrev S100000x64 : Shape := ⟨2, ![100000, 64]⟩
abbrev S5000x64 : Shape := ⟨2, ![5000, 64]⟩
abbrev S128x64 : Shape := ⟨2, ![128, 64]⟩

abbrev nBuf : Space → Nat
  | .hbm => 44
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S100000x1, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S1x64, .f32⟩
  | .hbm, ⟨43, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S64x128, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 66
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S100000x128, .f32⟩
  | .hbm, ⟨27, _⟩ => ⟨S100000x1, .f32⟩
  | .hbm, ⟨28, _⟩ => ⟨S_, .f32⟩
  | .hbm, ⟨29, _⟩ => ⟨S100000x1, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S128x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x128, .f32⟩
  | .hbm, ⟨55, _⟩ => ⟨S100000x1, .f32⟩
  | .hbm, ⟨56, _⟩ => ⟨S_, .f32⟩
  | .hbm, ⟨57, _⟩ => ⟨S100000x1, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S128x64, .f32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_cst : Ref sig .tc := ⟨.hbm, 38, rfl⟩
abbrev main_call0_v0 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.Spec.lean ====
/-
  Two layers of mean-aggregating graph convolution, as functions of whole arrays on the extended reals.

  A layer takes the neighbour sums agg[v, k] (the sum over edges u → v of h[u, k]), the node features
  h[v, k], the in-degrees deg[v] (held as a column), a weight matrix W[j, k] and a bias b[j] (held as a
  row), and returns at (v, j)

      ∑ k, ((agg[v, k] + h[v, k]) / (deg[v] + 1)) · W[j, k]  +  b[j],

  the first layer followed by max(·, 0). Division is the extended reals' total division; 1 and 0 are the
  single-precision words 0x3F800000 and 0x00000000 read exactly.
-/
import Idealize.ShloMosaic.PureOps.Ideal
import Idealize.ShloMosaic.Lib.ValueIdx

noncomputable section

open scoped BigOperators

namespace Cert.Sage

open Idealize.ShloMosaic Idealize.ShloMosaic.ValueIdx

/-- The word of 1.0. -/
abbrev one : EReal := Ideal.ofBits .f32 0x3F800000#32
/-- The word of 0.0. -/
abbrev zero : EReal := Ideal.ofBits .f32 0x00000000#32

/-- The normalised neighbourhood mean at node r, feature k: (agg + h) / (deg + 1). -/
def mean (agg h : (⟨2, ![100000, 128]⟩ : Shape).Idx → EReal) (degc : (⟨2, ![100000, 1]⟩ : Shape).Idx → EReal)
    (r : Fin 100000) (k : Fin 128) : EReal :=
  Ideal.div (agg (ix2 r k) + h (ix2 r k)) (degc (ix2 r 0) + one)

/-- The first layer at node r, output feature j: the mean's row against row j of W, plus the bias, clamped at 0. -/
def hiddenAt (agg h : (⟨2, ![100000, 128]⟩ : Shape).Idx → EReal) (degc : (⟨2, ![100000, 1]⟩ : Shape).Idx → EReal)
    (W : (⟨2, ![128, 128]⟩ : Shape).Idx → EReal) (brow : (⟨2, ![1, 128]⟩ : Shape).Idx → EReal)
    (r : Fin 100000) (j : Fin 128) : EReal :=
  max ((∑ k : Fin 128, mean agg h degc r k * W (ix2 j k)) + brow (ix2 0 j)) zero

/-- The first layer as an array. -/
def hidden (agg h : (⟨2, ![100000, 128]⟩ : Shape).Idx → EReal) (degc : (⟨2, ![100000, 1]⟩ : Shape).Idx → EReal)
    (W : (⟨2, ![128, 128]⟩ : Shape).Idx → EReal) (brow : (⟨2, ![1, 128]⟩ : Shape).Idx → EReal) :
    (⟨2, ![100000, 128]⟩ : Shape).Idx → EReal :=
  fun i => hiddenAt agg h degc W brow (i 0) (i 1)

/-- The second layer at node r, output feature j: the mean's row against row j of W, plus the bias. -/
def outAt (agg h : (⟨2, ![100000, 128]⟩ : Shape).Idx → EReal) (degc : (⟨2, ![100000, 1]⟩ : Shape).Idx → EReal)
    (W : (⟨2, ![64, 128]⟩ : Shape).Idx → EReal) (brow : (⟨2, ![1, 64]⟩ : Shape).Idx → EReal)
    (r : Fin 100000) (j : Fin 64) : EReal :=
  (∑ k : Fin 128, mean agg h degc r k * W (ix2 j k)) + brow (ix2 0 j)

/-- The second layer as an array. -/
def out (agg h : (⟨2, ![100000, 128]⟩ : Shape).Idx → EReal) (degc : (⟨2, ![100000, 1]⟩ : Shape).Idx → EReal)
    (W : (⟨2, ![64, 128]⟩ : Shape).Idx → EReal) (brow : (⟨2, ![1, 64]⟩ : Shape).Idx → EReal) :
    (⟨2, ![100000, 64]⟩ : Shape).Idx → EReal :=
  fun i => outAt agg h degc W brow (i 0) (i 1)

theorem hidden_ix2 (agg h : (⟨2, ![100000, 128]⟩ : Shape).Idx → EReal) (degc : (⟨2, ![100000, 1]⟩ : Shape).Idx → EReal)
    (W : (⟨2, ![128, 128]⟩ : Shape).Idx → EReal) (brow : (⟨2, ![1, 128]⟩ : Shape).Idx → EReal)
    (r : Fin 100000) (j : Fin 128) : hidden agg h degc W brow (ix2 r j) = hiddenAt agg h degc W brow r j := rfl

theorem out_ix2 (agg h : (⟨2, ![100000, 128]⟩ : Shape).Idx → EReal) (degc : (⟨2, ![100000, 1]⟩ : Shape).Idx → EReal)
    (W : (⟨2, ![64, 128]⟩ : Shape).Idx → EReal) (brow : (⟨2, ![1, 64]⟩ : Shape).Idx → EReal)
    (r : Fin 100000) (j : Fin 64) : out agg h degc W brow (ix2 r j) = outAt agg h degc W brow r j := rfl

end Cert.Sage

end
-- ==== Proof.KernelBlock.lean ====
/-
  What one grid step of each dense layer stores, read at one entry of its block.

  A step holds 5000 consecutive rows: the neighbour sums a, the features h, the degree column d, the whole
  weight matrix W (out × 128) and the bias row b. At row p of the block and output feature q it stores

      ∑ k, ((a[p, k] + h[p, k]) / (d[p, 0] + 1)) · W[q, k] + b[0, q],

  clamped below at 0 in the first layer: the product is a matrix product of the normalised rows with W
  transposed, accumulated from zero, and on the extended reals the change of format before it is the identity.
-/
import proofs.«148376_j5214090297412_1_alg».proof.Proof.Gen.KernelIdeal.Skeleton
import proofs.«148376_j5214090297412_1_alg».proof.Proof.LibPlainDot
import proofs.«148376_j5214090297412_1_alg».proof.Proof.LibKeepdims
import proofs.«148376_j5214090297412_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- The first layer's product, accumulated from zero, at (p, q): the sum over the shared coordinate. -/
theorem matmul0_apply (a : FVec Ideal S5000x128 .bf16) (b : FVec Ideal S128x128 .bf16) (p : Fin 5000) (q : Fin 128) :
    matmul dot_S5000x128_S128x128_S5000x128_1_0_0_1_n_n none a b (constant S5000x128 .f32 0x00000000#32) (ix2 p q)
      = ∑ k : Fin 128, a (ix2 p k) * b (ix2 k q) :=
  Idealize.ShloMosaic.PlainDot.matmul_zero_apply 5000 128 128 none a b p q

/-- The second layer's product, accumulated from zero, at (p, q). -/
theorem matmul1_apply (a : FVec Ideal S5000x128 .bf16) (b : FVec Ideal S128x64 .bf16) (p : Fin 5000) (q : Fin 64) :
    matmul dot_S5000x128_S128x64_S5000x64_1_0_0_1_n_n none a b (constant S5000x64 .f32 0x00000000#32) (ix2 p q)
      = ∑ k : Fin 128, a (ix2 p k) * b (ix2 k q) :=
  Idealize.ShloMosaic.PlainDot.matmul_zero_apply 5000 128 64 none a b p q

/-- The first layer's stored value at row p of the block, output feature q. -/
theorem pay0_apply (x0 x1 : Vec Ideal S5000x128 .f32) (x2 : Vec Ideal S5000x1 .f32) (x3 : Vec Ideal S128x128 .f32)
    (x4 : Vec Ideal S1x128 .f32) (p : Fin 5000) (q : Fin 128) :
    k0_pay1 (F := Ideal) x0 x1 x2 x3 x4 (ix2 p q)
      = max ((∑ k : Fin 128, Ideal.div (x0 (ix2 p k) + x1 (ix2 p k)) (x2 (ix2 p 0) + Cert.Sage.one) * x3 (ix2 q k))
          + x4 (ix2 0 q)) Cert.Sage.zero := by
  unfold k0_pay1
  dsimp only
  rw [maximumf_apply, addf_apply, matmul0_apply]
  refine congrArg₂ max (congrArg₂ (· + ·) (Finset.sum_congr rfl fun k _ => congrArg₂ (· * ·) ?_ ?_) ?_) rfl
  · rw [truncf_apply, divf_apply, addf_apply, shapeCast_self, Cert.LibKeepdims.broadcastTo_a1_ab_apply, addf_apply,
      shapeCast_self, broadcast_apply]
    rfl
  · rw [transpose_ix2_apply, truncf_apply]
  · rw [broadcastTo_1b_ab_apply, shapeCast_self]

/-- The second layer's stored value at row p of the block, output feature q. -/
theorem pay1_apply (x0 x1 : Vec Ideal S5000x128 .f32) (x2 : Vec Ideal S5000x1 .f32) (x3 : Vec Ideal S64x128 .f32)
    (x4 : Vec Ideal S1x64 .f32) (p : Fin 5000) (q : Fin 64) :
    k1_pay1 (F := Ideal) x0 x1 x2 x3 x4 (ix2 p q)
      = (∑ k : Fin 128, Ideal.div (x0 (ix2 p k) + x1 (ix2 p k)) (x2 (ix2 p 0) + Cert.Sage.one) * x3 (ix2 q k))
          + x4 (ix2 0 q) := by
  unfold k1_pay1
  dsimp only
  rw [addf_apply, matmul1_apply]
  refine congrArg₂ (· + ·) (Finset.sum_congr rfl fun k _ => congrArg₂ (· * ·) ?_ ?_) ?_
  · rw [truncf_apply, divf_apply, addf_apply, shapeCast_self, shapeCast_self, Cert.LibKeepdims.broadcastTo_a1_ab_apply,
      addf_apply, shapeCast_self, broadcast_apply]
    rfl
  · rw [transpose_ix2_apply, truncf_apply]
  · rw [broadcastTo_1b_ab_apply, shapeCast_self]

end Cert.KernelIdeal.Block

end
-- ==== Proof.KernelRegion.lean ====
/-
  From blocks to whole arrays: each dense layer's result array after its region.

  The grid has 20 steps; step t reads rows 5000·t … 5000·t + 4999 of the neighbour sums, of the features and of
  the degree column, the whole weight matrix and the whole bias row, and writes back the same rows of the
  result. Those twenty row blocks tile the result, so after the region it holds the layer's array of the arrays
  the region found when it was entered — whatever those are.
-/
import proofs.«148376_j5214090297412_1_alg».proof.Proof.Gen.KernelIdeal.Frame
import proofs.«148376_j5214090297412_1_alg».proof.Proof.KernelBlock
import proofs.«148376_j5214090297412_1_alg».proof.Proof.Spec
import Idealize.ShloMosaic.Lib.Pipeline.Value
import Idealize.ShloMosaic.Lib.Tactic

noncomputable section

open scoped BigOperators

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

/-- Row p of block T as a row of the whole array. -/
def rowOf (T : Fin 20) (p : Fin 5000) : Fin 100000 :=
  ⟨T.val * 5000 + p.val, by have := T.isLt; have := p.isLt; omega⟩

theorem hz : (![0, 0] : Fin 2 → Nat) = fun _ => 0 := funext fun a => by fin_cases a <;> rfl

variable (V : (c : Dev nD) → (b : Ref sig .tc) → Buf (Elt Ideal) ((c : Thread nD τ).loc b))

/-! ## The first layer's region -/

/-- Where each operand's block sits at grid step t: the row operands at block row t, the weights and the bias whole. -/
theorem idx0 : ∀ t : Fin cfg0.N, win0_0.index t 0 = t.val ∧ win0_0.index t 1 = 0
    ∧ win0_1.index t 0 = t.val ∧ win0_1.index t 1 = 0
    ∧ win0_2.index t 0 = t.val ∧ win0_2.index t 1 = 0
    ∧ win0_3.index t 0 = 0 ∧ win0_3.index t 1 = 0
    ∧ win0_4.index t 0 = 0 ∧ win0_4.index t 1 = 0
    ∧ win0_5.index t 0 = t.val ∧ win0_5.index t 1 = 0 :=
  (by decide +kernel : ∀ t : Fin grid0.N, _)

/-- One block of the first layer: if the row operands' blocks are rows 5000·T … 5000·T + 4999 of the arrays and the
    weights and bias are read whole, the stored block is those rows of the layer's array. -/
theorem block0_eq (agg h : (⟨2, ![100000, 128]⟩ : Shape).Idx → EReal) (degc : (⟨2, ![100000, 1]⟩ : Shape).Idx → EReal)
    (W : (⟨2, ![128, 128]⟩ : Shape).Idx → EReal) (brow : (⟨2, ![1, 128]⟩ : Shape).Idx → EReal)
    (x0 x1 : Vec Ideal S5000x128 .f32) (x2 : Vec Ideal S5000x1 .f32) (x3 : Vec Ideal S128x128 .f32) (x4 : Vec Ideal S1x128 .f32)
    (T : Fin 20)
    (h0 : ∀ (p : Fin 5000) (k : Fin 128), x0 (ix2 p k) = agg (ix2 (rowOf T p) k))
    (h1 : ∀ (p : Fin 5000) (k : Fin 128), x1 (ix2 p k) = h (ix2 (rowOf T p) k))
    (h2 : ∀ (p : Fin 5000), x2 (ix2 p 0) = degc (ix2 (rowOf T p) 0))
    (h3 : ∀ (q : Fin 128) (k : Fin 128), x3 (ix2 q k) = W (ix2 q k))
    (h4 : ∀ (q : Fin 128), x4 (ix2 0 q) = brow (ix2 0 q))
    (y : (⟨2, ![5000, 128]⟩ : Shape).Idx) (i : (⟨2, ![100000, 128]⟩ : Shape).Idx)
    (hi0 : (i 0).val = T.val * 5000 + (y 0).val) (hi1 : (i 1).val = (y 1).val) :
    k0_pay1 (F := Ideal) x0 x1 x2 x3 x4 y = Cert.Sage.hidden agg h degc W brow i := by
  obtain ⟨p, q, rfl⟩ : ∃ (p : Fin 5000) (q : Fin 128), y = ix2 p q := ⟨y 0, y 1, eq_ix2 y⟩
  obtain ⟨r, j, rfl⟩ : ∃ (r : Fin 100000) (j : Fin 128), i = ix2 r j := ⟨i 0, i 1, eq_ix2 i⟩
  obtain rfl : r = rowOf T p := Fin.ext hi0
  obtain rfl : j = q := Fin.ext hi1
  rw [Cert.KernelIdeal.Block.pay0_apply, Cert.Sage.hidden_ix2]
  unfold Cert.Sage.hiddenAt Cert.Sage.mean
  simp only [h0, h1, h2, h3, h4]

/-- What grid step t writes back is block t of the first layer's array of the arrays the region finds. -/
theorem flushed0_eq (c : Dev nD) (t : Fin cfg0.N) :
    (dat0 (F := Ideal) V c).flushed 5 t = ((cfg0.win 5).blk t).view.read (Elt Ideal)
      (Cert.Sage.hidden (V c main_v14) (V c main_arg0) (V c main_v4) (V c main_arg3) (V c main_v15)) := by
  show (cfg0.win 5).cut (grid0.coords t) ((dat0 (F := Ideal) V c).after 5 t) = _
  rw [after0_5]
  unfold out0_5
  rw [View.canon_unit_zero hz]
  simp only [View.ld_unit_zero (S := S5000x128) hz, View.ld_unit_zero (S := S5000x1) hz, View.ld_unit_zero (S := S128x128) hz,
    View.ld_unit_zero (S := S1x128) hz]
  obtain ⟨e00, e01, e10, e11, e20, e21, e30, e31, e40, e41, e50, e51⟩ := idx0 t
  have ht : t.val < 20 := (N_0 ▸ t.isLt : t.val < 20)
  have H0 : ∀ (p : Fin 5000) (k : Fin 128), (iblk0 V c 0 t : Vec Ideal S5000x128 .f32) (ix2 p k)
      = (V c main_v14 : S100000x128.Idx → EReal) (ix2 (rowOf ⟨t.val, ht⟩ p) k) := fun p k => by
    unfold iblk0
    rw [View.read_apply]
    show V c main_v14 _ = V c main_v14 _
    refine congrArg (V c main_v14) (funext fun a => Fin.ext ?_)
    match a with
    | ⟨0, _⟩ => show win0_0.index t 0 * 5000 + 1 * p.val = t.val * 5000 + p.val; rw [e00]; omega
    | ⟨1, _⟩ => show win0_0.index t 1 * 128 + 1 * k.val = k.val; rw [e01]; omega
  have H1 : ∀ (p : Fin 5000) (k : Fin 128), (iblk0 V c 1 t : Vec Ideal S5000x128 .f32) (ix2 p k)
      = (V c main_arg0 : S100000x128.Idx → EReal) (ix2 (rowOf ⟨t.val, ht⟩ p) k) := fun p k => by
    unfold iblk0
    rw [View.read_apply]
    show V c main_arg0 _ = V c main_arg0 _
    refine congrArg (V c main_arg0) (funext fun a => Fin.ext ?_)
    match a with
    | ⟨0, _⟩ => show win0_1.index t 0 * 5000 + 1 * p.val = t.val * 5000 + p.val; rw [e10]; omega
    | ⟨1, _⟩ => show win0_1.index t 1 * 128 + 1 * k.val = k.val; rw [e11]; omega
  have H2 : ∀ (p : Fin 5000), (iblk0 V c 2 t : Vec Ideal S5000x1 .f32) (ix2 p 0)
      = (V c main_v4 : S100000x1.Idx → EReal) (ix2 (rowOf ⟨t.val, ht⟩ p) 0) := fun p => by
    unfold iblk0
    rw [View.read_apply]
    show V c main_v4 _ = V c main_v4 _
    refine congrArg (V c main_v4) (funext fun a => Fin.ext ?_)
    match a with
    | ⟨0, _⟩ => show win0_2.index t 0 * 5000 + 1 * p.val = t.val * 5000 + p.val; rw [e20]; omega
    | ⟨1, _⟩ => show win0_2.index t 1 * 1 + 1 * 0 = 0; rw [e21]
  have H3 : ∀ (q : Fin 128) (k : Fin 128), (iblk0 V c 3 t : Vec Ideal S128x128 .f32) (ix2 q k)
      = (V c main_arg3 : S128x128.Idx → EReal) (ix2 q k) := fun q k => by
    unfold iblk0
    rw [View.read_apply]
    show V c main_arg3 _ = V c main_arg3 _
    refine congrArg (V c main_arg3) (funext fun a => Fin.ext ?_)
    match a with
    | ⟨0, _⟩ => show win0_3.index t 0 * 128 + 1 * q.val = q.val; rw [e30]; omega
    | ⟨1, _⟩ => show win0_3.index t 1 * 128 + 1 * k.val = k.val; rw [e31]; omega
  have H4 : ∀ (q : Fin 128), (iblk0 V c 4 t : Vec Ideal S1x128 .f32) (ix2 0 q)
      = (V c main_v15 : S1x128.Idx → EReal) (ix2 0 q) := fun q => by
    unfold iblk0
    rw [View.read_apply]
    show V c main_v15 _ = V c main_v15 _
    refine congrArg (V c main_v15) (funext fun a => Fin.ext ?_)
    match a with
    | ⟨0, _⟩ => show win0_4.index t 0 * 1 + 1 * 0 = 0; rw [e40]
    | ⟨1, _⟩ => show win0_4.index t 1 * 128 + 1 * q.val = q.val; rw [e41]; omega
  funext y
  refine block0_eq (V c main_v14) (V c main_arg0) (V c main_v4) (V c main_arg3) (V c main_v15) (iblk0 V c 0 t) (iblk0 V c 1 t) (iblk0 V c 2 t)
    (iblk0 V c 3 t) (iblk0 V c 4 t) ⟨t.val, ht⟩ H0 H1 H2 H3 H4 y (((cfg0.win 5).blk t).view.emb y) ?_ ?_
  · show win0_5.index t 0 * 5000 + 1 * (y 0).val = t.val * 5000 + (y 0).val; rw [e50]; omega
  · show win0_5.index t 1 * 128 + 1 * (y 1).val = (y 1).val; rw [e51]; omega

/-- An index of the result array is in step t's block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v16).slice (win0_5.rect t)).set ↔ _
  rw [View.set_slice_whole, Rect.mem_set_unit]
  exact Iff.rfl

/-- Every row of the result lies in the block of the step its row number divided by 5000 names. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨e00, e01, e10, e11, e20, e21, e30, e31, e40, e41, e50, e51⟩ := idx0 t
  refine ⟨t, flush0_5 t, ?_⟩
  rw [mem_blk0]
  intro a
  match a with
  | ⟨0, _⟩ =>
    show win0_5.index t 0 * 5000 ≤ (i 0).val ∧ (i 0).val < win0_5.index t 0 * 5000 + 5000
    rw [e50, ht]; omega
  | ⟨1, _⟩ =>
    show win0_5.index t 1 * 128 ≤ (i 1).val ∧ (i 1).val < win0_5.index t 1 * 128 + 128
    rw [e51]; omega

/-- After the region the result array holds the first layer's array of the arrays the region found. -/
theorem final0 (c : Dev nD) : (dat0 (F := Ideal) V c).arrAt 5 cfg0.N
    = Cert.Sage.hidden (V c main_v14) (V c main_arg0) (V c main_v4) (V c main_arg3) (V c main_v15) :=
  (dat0 (F := Ideal) V c).arrAt_eq_of_cover 5 _ (fun t _ => flushed0_eq V c t) (cover0)

/-! ## The second layer's region -/

/-- Where each operand's block sits at grid step t: the row operands at block row t, the weights and the bias whole. -/
theorem idx1 : ∀ t : Fin cfg1.N, win1_0.index t 0 = t.val ∧ win1_0.index t 1 = 0
    ∧ win1_1.index t 0 = t.val ∧ win1_1.index t 1 = 0
    ∧ win1_2.index t 0 = t.val ∧ win1_2.index t 1 = 0
    ∧ win1_3.index t 0 = 0 ∧ win1_3.index t 1 = 0
    ∧ win1_4.index t 0 = 0 ∧ win1_4.index t 1 = 0
    ∧ win1_5.index t 0 = t.val ∧ win1_5.index t 1 = 0 :=
  (by decide +kernel : ∀ t : Fin grid1.N, _)

/-- One block of the second layer: if the row operands' blocks are rows 5000·T … 5000·T + 4999 of the arrays and the
    weights and bias are read whole, the stored block is those rows of the layer's array. -/
theorem block1_eq (agg h : (⟨2, ![100000, 128]⟩ : Shape).Idx → EReal) (degc : (⟨2, ![100000, 1]⟩ : Shape).Idx → EReal)
    (W : (⟨2, ![64, 128]⟩ : Shape).Idx → EReal) (brow : (⟨2, ![1, 64]⟩ : Shape).Idx → EReal)
    (x0 x1 : Vec Ideal S5000x128 .f32) (x2 : Vec Ideal S5000x1 .f32) (x3 : Vec Ideal S64x128 .f32) (x4 : Vec Ideal S1x64 .f32)
    (T : Fin 20)
    (h0 : ∀ (p : Fin 5000) (k : Fin 128), x0 (ix2 p k) = agg (ix2 (rowOf T p) k))
    (h1 : ∀ (p : Fin 5000) (k : Fin 128), x1 (ix2 p k) = h (ix2 (rowOf T p) k))
    (h2 : ∀ (p : Fin 5000), x2 (ix2 p 0) = degc (ix2 (rowOf T p) 0))
    (h3 : ∀ (q : Fin 64) (k : Fin 128), x3 (ix2 q k) = W (ix2 q k))
    (h4 : ∀ (q : Fin 64), x4 (ix2 0 q) = brow (ix2 0 q))
    (y : (⟨2, ![5000, 64]⟩ : Shape).Idx) (i : (⟨2, ![100000, 64]⟩ : Shape).Idx)
    (hi0 : (i 0).val = T.val * 5000 + (y 0).val) (hi1 : (i 1).val = (y 1).val) :
    k1_pay1 (F := Ideal) x0 x1 x2 x3 x4 y = Cert.Sage.out agg h degc W brow i := by
  obtain ⟨p, q, rfl⟩ : ∃ (p : Fin 5000) (q : Fin 64), y = ix2 p q := ⟨y 0, y 1, eq_ix2 y⟩
  obtain ⟨r, j, rfl⟩ : ∃ (r : Fin 100000) (j : Fin 64), i = ix2 r j := ⟨i 0, i 1, eq_ix2 i⟩
  obtain rfl : r = rowOf T p := Fin.ext hi0
  obtain rfl : j = q := Fin.ext hi1
  rw [Cert.KernelIdeal.Block.pay1_apply, Cert.Sage.out_ix2]
  unfold Cert.Sage.outAt Cert.Sage.mean
  simp only [h0, h1, h2, h3, h4]

/-- What grid step t writes back is block t of the second layer's array of the arrays the region finds. -/
theorem flushed1_eq (c : Dev nD) (t : Fin cfg1.N) :
    (dat1 (F := Ideal) V c).flushed 5 t = ((cfg1.win 5).blk t).view.read (Elt Ideal)
      (Cert.Sage.out (V c main_v26) (V c main_v16) (V c main_v4) (V c main_arg5) (V c main_v27)) := by
  show (cfg1.win 5).cut (grid1.coords t) ((dat1 (F := Ideal) V c).after 5 t) = _
  rw [after1_5]
  unfold out1_5
  rw [View.canon_unit_zero hz]
  simp only [View.ld_unit_zero (S := S5000x128) hz, View.ld_unit_zero (S := S5000x1) hz, View.ld_unit_zero (S := S64x128) hz,
    View.ld_unit_zero (S := S1x64) hz]
  obtain ⟨e00, e01, e10, e11, e20, e21, e30, e31, e40, e41, e50, e51⟩ := idx1 t
  have ht : t.val < 20 := (N_1 ▸ t.isLt : t.val < 20)
  have H0 : ∀ (p : Fin 5000) (k : Fin 128), (iblk1 V c 0 t : Vec Ideal S5000x128 .f32) (ix2 p k)
      = (V c main_v26 : S100000x128.Idx → EReal) (ix2 (rowOf ⟨t.val, ht⟩ p) k) := fun p k => by
    unfold iblk1
    rw [View.read_apply]
    show V c main_v26 _ = V c main_v26 _
    refine congrArg (V c main_v26) (funext fun a => Fin.ext ?_)
    match a with
    | ⟨0, _⟩ => show win1_0.index t 0 * 5000 + 1 * p.val = t.val * 5000 + p.val; rw [e00]; omega
    | ⟨1, _⟩ => show win1_0.index t 1 * 128 + 1 * k.val = k.val; rw [e01]; omega
  have H1 : ∀ (p : Fin 5000) (k : Fin 128), (iblk1 V c 1 t : Vec Ideal S5000x128 .f32) (ix2 p k)
      = (V c main_v16 : S100000x128.Idx → EReal) (ix2 (rowOf ⟨t.val, ht⟩ p) k) := fun p k => by
    unfold iblk1
    rw [View.read_apply]
    show V c main_v16 _ = V c main_v16 _
    refine congrArg (V c main_v16) (funext fun a => Fin.ext ?_)
    match a with
    | ⟨0, _⟩ => show win1_1.index t 0 * 5000 + 1 * p.val = t.val * 5000 + p.val; rw [e10]; omega
    | ⟨1, _⟩ => show win1_1.index t 1 * 128 + 1 * k.val = k.val; rw [e11]; omega
  have H2 : ∀ (p : Fin 5000), (iblk1 V c 2 t : Vec Ideal S5000x1 .f32) (ix2 p 0)
      = (V c main_v4 : S100000x1.Idx → EReal) (ix2 (rowOf ⟨t.val, ht⟩ p) 0) := fun p => by
    unfold iblk1
    rw [View.read_apply]
    show V c main_v4 _ = V c main_v4 _
    refine congrArg (V c main_v4) (funext fun a => Fin.ext ?_)
    match a with
    | ⟨0, _⟩ => show win1_2.index t 0 * 5000 + 1 * p.val = t.val * 5000 + p.val; rw [e20]; omega
    | ⟨1, _⟩ => show win1_2.index t 1 * 1 + 1 * 0 = 0; rw [e21]
  have H3 : ∀ (q : Fin 64) (k : Fin 128), (iblk1 V c 3 t : Vec Ideal S64x128 .f32) (ix2 q k)
      = (V c main_arg5 : S64x128.Idx → EReal) (ix2 q k) := fun q k => by
    unfold iblk1
    rw [View.read_apply]
    show V c main_arg5 _ = V c main_arg5 _
    refine congrArg (V c main_arg5) (funext fun a => Fin.ext ?_)
    match a with
    | ⟨0, _⟩ => show win1_3.index t 0 * 64 + 1 * q.val = q.val; rw [e30]; omega
    | ⟨1, _⟩ => show win1_3.index t 1 * 128 + 1 * k.val = k.val; rw [e31]; omega
  have H4 : ∀ (q : Fin 64), (iblk1 V c 4 t : Vec Ideal S1x64 .f32) (ix2 0 q)
      = (V c main_v27 : S1x64.Idx → EReal) (ix2 0 q) := fun q => by
    unfold iblk1
    rw [View.read_apply]
    show V c main_v27 _ = V c main_v27 _
    refine congrArg (V c main_v27) (funext fun a => Fin.ext ?_)
    match a with
    | ⟨0, _⟩ => show win1_4.index t 0 * 1 + 1 * 0 = 0; rw [e40]
    | ⟨1, _⟩ => show win1_4.index t 1 * 64 + 1 * q.val = q.val; rw [e41]; omega
  funext y
  refine block1_eq (V c main_v26) (V c main_v16) (V c main_v4) (V c main_arg5) (V c main_v27) (iblk1 V c 0 t) (iblk1 V c 1 t) (iblk1 V c 2 t)
    (iblk1 V c 3 t) (iblk1 V c 4 t) ⟨t.val, ht⟩ H0 H1 H2 H3 H4 y (((cfg1.win 5).blk t).view.emb y) ?_ ?_
  · show win1_5.index t 0 * 5000 + 1 * (y 0).val = t.val * 5000 + (y 0).val; rw [e50]; omega
  · show win1_5.index t 1 * 64 + 1 * (y 1).val = (y 1).val; rw [e51]; omega

/-- An index of the result array is in step t's block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v28).slice (win1_5.rect t)).set ↔ _
  rw [View.set_slice_whole, Rect.mem_set_unit]
  exact Iff.rfl

/-- Every row of the result lies in the block of the step its row number divided by 5000 names. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, by rw [show cfg1.N = 20 from N_1]; omega⟩, rfl⟩
  obtain ⟨e00, e01, e10, e11, e20, e21, e30, e31, e40, e41, e50, e51⟩ := idx1 t
  refine ⟨t, flush1_5 t, ?_⟩
  rw [mem_blk1]
  intro a
  match a with
  | ⟨0, _⟩ =>
    show win1_5.index t 0 * 5000 ≤ (i 0).val ∧ (i 0).val < win1_5.index t 0 * 5000 + 5000
    rw [e50, ht]; omega
  | ⟨1, _⟩ =>
    show win1_5.index t 1 * 64 ≤ (i 1).val ∧ (i 1).val < win1_5.index t 1 * 64 + 64
    rw [e51]; omega

/-- After the region the result array holds the second layer's array of the arrays the region found. -/
theorem final1 (c : Dev nD) : (dat1 (F := Ideal) V c).arrAt 5 cfg1.N
    = Cert.Sage.out (V c main_v26) (V c main_v16) (V c main_v4) (V c main_arg5) (V c main_v27) :=
  (dat1 (F := Ideal) V c).arrAt_eq_of_cover 5 _ (fun t _ => flushed1_eq V c t) (cover1)

end Cert.KernelIdeal.Region

end
-- ==== Proof.HostStretch.lean ====
/-
  The host operations around the two dense layers, read as functions of the buffers they start from.

  Before the first layer the host computes the in-degrees (a scatter-add of ones at the edge targets), the
  neighbour sums of the input features (a gather at the edge sources, negative sources wrapped once, then a
  scatter-add at the targets), and lays the degrees out as a column and the first bias as a row. Between the
  layers it computes the neighbour sums of the first layer's result in the same way and lays the second bias
  out as a row. Each is stated here for an arbitrary valuation of the buffers.
-/
import proofs.«148376_j5214090297412_1_alg».proof.Proof.Gen.KernelIdeal.Launch
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.StableHlo

variable {F : FTy → Type} [FloatOps F]

/-- The in-degree of every node: ones added up at the edge targets. -/
def degOf (dst : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

/-- The neighbour sums of the features h: for every node, the rows of h at the sources of its incoming edges added up. -/
def aggOf (h : (⟨S100000x128, .f32⟩ : BufTy).Contents (Elt F)) (src dst : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-! ## The operations before the first layer -/

theorem before_agg (W : Valuation τ sig (Elt F)) :
    after (hostOps0 (F := F)) W (Proc.devRef .tc main_v14)
      = aggOf (W (Proc.devRef .tc main_arg0)) (W (Proc.devRef .tc main_arg1)) (W (Proc.devRef .tc main_arg2)) := by
  dsimp only [hostOps0]
  after_results
  rfl

theorem before_degc (W : Valuation τ sig (Elt F)) :
    after (hostOps0 (F := F)) W (Proc.devRef .tc main_v4)
      = shapeCast S100000x1 (degOf (W (Proc.devRef .tc main_arg2))) shapeCasts_S100000_S100000x1 := by
  dsimp only [hostOps0]
  after_results
  rfl

theorem before_brow (W : Valuation τ sig (Elt F)) :
    after (hostOps0 (F := F)) W (Proc.devRef .tc main_v15)
      = shapeCast S1x128 (W (Proc.devRef .tc main_arg4)) shapeCasts_S128_S1x128 := by
  dsimp only [hostOps0]
  after_results
  rfl

theorem before_arg0 (W : Valuation τ sig (Elt F)) :
    after (hostOps0 (F := F)) W (Proc.devRef .tc main_arg0) = W (Proc.devRef .tc main_arg0) := by
  dsimp only [hostOps0]
  after_results

theorem before_arg1 (W : Valuation τ sig (Elt F)) :
    after (hostOps0 (F := F)) W (Proc.devRef .tc main_arg1) = W (Proc.devRef .tc main_arg1) := by
  dsimp only [hostOps0]
  after_results

theorem before_arg2 (W : Valuation τ sig (Elt F)) :
    after (hostOps0 (F := F)) W (Proc.devRef .tc main_arg2) = W (Proc.devRef .tc main_arg2) := by
  dsimp only [hostOps0]
  after_results

theorem before_arg3 (W : Valuation τ sig (Elt F)) :
    after (hostOps0 (F := F)) W (Proc.devRef .tc main_arg3) = W (Proc.devRef .tc main_arg3) := by
  dsimp only [hostOps0]
  after_results

theorem before_arg5 (W : Valuation τ sig (Elt F)) :
    after (hostOps0 (F := F)) W (Proc.devRef .tc main_arg5) = W (Proc.devRef .tc main_arg5) := by
  dsimp only [hostOps0]
  after_results

theorem before_arg6 (W : Valuation τ sig (Elt F)) :
    after (hostOps0 (F := F)) W (Proc.devRef .tc main_arg6) = W (Proc.devRef .tc main_arg6) := by
  dsimp only [hostOps0]
  after_results

/-! ## The operations between the layers -/

theorem between_agg (W : Valuation τ sig (Elt F)) :
    after (hostOps1 (F := F)) W (Proc.devRef .tc main_v26)
      = aggOf (W (Proc.devRef .tc main_v16)) (W (Proc.devRef .tc main_arg1)) (W (Proc.devRef .tc main_arg2)) := by
  dsimp only [hostOps1]
  after_results
  rfl

theorem between_brow (W : Valuation τ sig (Elt F)) :
    after (hostOps1 (F := F)) W (Proc.devRef .tc main_v27)
      = shapeCast S1x64 (W (Proc.devRef .tc main_arg6)) shapeCasts_S64_S1x64 := by
  dsimp only [hostOps1]
  after_results
  rfl

theorem between_hidden (W : Valuation τ sig (Elt F)) :
    after (hostOps1 (F := F)) W (Proc.devRef .tc main_v16) = W (Proc.devRef .tc main_v16) := by
  dsimp only [hostOps1]
  after_results

theorem between_degc (W : Valuation τ sig (Elt F)) :
    after (hostOps1 (F := F)) W (Proc.devRef .tc main_v4) = W (Proc.devRef .tc main_v4) := by
  dsimp only [hostOps1]
  after_results

theorem between_arg5 (W : Valuation τ sig (Elt F)) :
    after (hostOps1 (F := F)) W (Proc.devRef .tc main_arg5) = W (Proc.devRef .tc main_arg5) := by
  dsimp only [hostOps1]
  after_results

end Cert.KernelIdeal.Host

end
-- ==== Proof.KernelRun.lean ====
/-
  The kernel program's result as one function of its argument arrays.

  The program runs the host operations before the first layer, the first layer's region, the host operations
  between the layers and the second layer's region. The buffer contents at the four boundaries are a fold from
  the launch memory; followed through it, the result buffer ends at the second layer's array of: the neighbour
  sums of the first layer's array, that array, the degree column, the second weights and the second bias row —
  the first layer's array being that of the neighbour sums of the input, the input, the degree column, the first
  weights and the first bias row.
-/
import proofs.«148376_j5214090297412_1_alg».proof.Proof.Gen.KernelIdeal.Frame
import proofs.«148376_j5214090297412_1_alg».proof.Proof.KernelRegion
import proofs.«148376_j5214090297412_1_alg».proof.Proof.HostStretch
import proofs.«148376_j5214090297412_1_alg».proof.Proof.Spec

noncomputable section

namespace Cert.KernelIdeal.Run

open Cert.KernelIdeal Cert.KernelIdeal.Gen Cert.KernelIdeal.Host Idealize.ShloMosaic Idealize.ShloMosaic.TcCoe Idealize.SL.Sem
open Idealize.ShloMosaic.Pipeline (Dat)

/-- The degree column of the edge targets. -/
def degCol (dst : (⟨S1600000, .i32⟩ : BufTy).Contents (Elt Ideal)) : (⟨S100000x1, .f32⟩ : BufTy).Contents (Elt Ideal) :=
  shapeCast S100000x1 (degOf (F := Ideal) dst) shapeCasts_S100000_S100000x1

/-- The first layer's array of the arguments. -/
def hid (x : (⟨S100000x128, .f32⟩ : BufTy).Contents (Elt Ideal)) (src dst : (⟨S1600000, .i32⟩ : BufTy).Contents (Elt Ideal)) (W1 : (⟨S128x128, .f32⟩ : BufTy).Contents (Elt Ideal))
    (b1 : (⟨S128, .f32⟩ : BufTy).Contents (Elt Ideal)) : (⟨S100000x128, .f32⟩ : BufTy).Contents (Elt Ideal) :=
  Cert.Sage.hidden (aggOf (F := Ideal) x src dst) x (degCol dst) W1 (shapeCast S1x128 b1 shapeCasts_S128_S1x128)

/-- The program's result of the arguments. -/
def value (x : (⟨S100000x128, .f32⟩ : BufTy).Contents (Elt Ideal)) (src dst : (⟨S1600000, .i32⟩ : BufTy).Contents (Elt Ideal)) (W1 : (⟨S128x128, .f32⟩ : BufTy).Contents (Elt Ideal))
    (b1 : (⟨S128, .f32⟩ : BufTy).Contents (Elt Ideal)) (W2 : (⟨S64x128, .f32⟩ : BufTy).Contents (Elt Ideal))
    (b2 : (⟨S64, .f32⟩ : BufTy).Contents (Elt Ideal)) : (⟨S100000x64, .f32⟩ : BufTy).Contents (Elt Ideal) :=
  Cert.Sage.out (aggOf (F := Ideal) (hid x src dst W1 b1) src dst) (hid x src dst W1 b1) (degCol dst) W2
    (shapeCast S1x64 b2 shapeCasts_S64_S1x64)

variable (m : (ℓ : Loc nD τ sig) → Buf (Elt Ideal) ℓ) (ρ : Dev nD → PrngReg)

/-! ## What the first region finds -/

theorem entry0_agg (c : Dev nD) : V1 m ρ c main_v14 = aggOf (F := Ideal) (m ((c : Thread nD τ).loc main_arg0)) (m ((c : Thread nD τ).loc main_arg1)) (m ((c : Thread nD τ).loc main_arg2)) :=
  before_agg (W0 m ρ c)
theorem entry0_x (c : Dev nD) : V1 m ρ c main_arg0 = (m ((c : Thread nD τ).loc main_arg0)) := before_arg0 (W0 m ρ c)
theorem entry0_degc (c : Dev nD) : V1 m ρ c main_v4 = degCol (m ((c : Thread nD τ).loc main_arg2)) := before_degc (W0 m ρ c)
theorem entry0_w (c : Dev nD) : V1 m ρ c main_arg3 = (m ((c : Thread nD τ).loc main_arg3)) := before_arg3 (W0 m ρ c)
theorem entry0_brow (c : Dev nD) : V1 m ρ c main_v15 = shapeCast S1x128 (m ((c : Thread nD τ).loc main_arg4)) shapeCasts_S128_S1x128 :=
  before_brow (W0 m ρ c)

/-! ## What the first region leaves -/

theorem mid_hidden (c : Dev nD) : W2 m ρ c (Proc.devRef .tc main_v16)
    = hid (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((Cert.KernelIdeal.Region.final0 (V1 m ρ) c).trans ?_)
  rw [entry0_agg, entry0_x, entry0_degc, entry0_w, entry0_brow]
  rfl
theorem mid_degc (c : Dev nD) : W2 m ρ c (Proc.devRef .tc main_v4) = degCol (m ((c : Thread nD τ).loc main_arg2)) :=
  (W2_arr m ρ c 2).trans ((((dat0 (V1 m ρ) c).arrAt_in 2 rfl _).trans (A_eq0 (V1 m ρ) c 2)).trans (entry0_degc m ρ c))
theorem mid_arg1 (c : Dev nD) : W2 m ρ c (Proc.devRef .tc main_arg1) = (m ((c : Thread nD τ).loc main_arg1)) :=
  (W2_of_ne m ρ c main_arg1 (by decide)).trans (before_arg1 (W0 m ρ c))
theorem mid_arg2 (c : Dev nD) : W2 m ρ c (Proc.devRef .tc main_arg2) = (m ((c : Thread nD τ).loc main_arg2)) :=
  (W2_of_ne m ρ c main_arg2 (by decide)).trans (before_arg2 (W0 m ρ c))
theorem mid_arg5 (c : Dev nD) : W2 m ρ c (Proc.devRef .tc main_arg5) = (m ((c : Thread nD τ).loc main_arg5)) :=
  (W2_of_ne m ρ c main_arg5 (by decide)).trans (before_arg5 (W0 m ρ c))
theorem mid_arg6 (c : Dev nD) : W2 m ρ c (Proc.devRef .tc main_arg6) = (m ((c : Thread nD τ).loc main_arg6)) :=
  (W2_of_ne m ρ c main_arg6 (by decide)).trans (before_arg6 (W0 m ρ c))

/-! ## What the second region finds -/

theorem entry1_agg (c : Dev nD) : V3 m ρ c main_v26
    = aggOf (F := Ideal) (hid (m ((c : Thread nD τ).loc main_arg0)) (m ((c : Thread nD τ).loc main_arg1)) (m ((c : Thread nD τ).loc main_arg2)) (m ((c : Thread nD τ).loc main_arg3)) (m ((c : Thread nD τ).loc main_arg4)))
        (m ((c : Thread nD τ).loc main_arg1)) (m ((c : Thread nD τ).loc main_arg2)) := by
  refine (between_agg (W2 m ρ c)).trans ?_
  rw [mid_hidden, mid_arg1, mid_arg2]
theorem entry1_h (c : Dev nD) : V3 m ρ c main_v16
    = hid (m ((c : Thread nD τ).loc main_arg0)) (m ((c : Thread nD τ).loc main_arg1)) (m ((c : Thread nD τ).loc main_arg2)) (m ((c : Thread nD τ).loc main_arg3)) (m ((c : Thread nD τ).loc main_arg4)) :=
  (between_hidden (W2 m ρ c)).trans (mid_hidden m ρ c)
theorem entry1_degc (c : Dev nD) : V3 m ρ c main_v4 = degCol (m ((c : Thread nD τ).loc main_arg2)) :=
  (between_degc (W2 m ρ c)).trans (mid_degc m ρ c)
theorem entry1_w (c : Dev nD) : V3 m ρ c main_arg5 = (m ((c : Thread nD τ).loc main_arg5)) :=
  (between_arg5 (W2 m ρ c)).trans (mid_arg5 m ρ c)
theorem entry1_brow (c : Dev nD) : V3 m ρ c main_v27 = shapeCast S1x64 (m ((c : Thread nD τ).loc main_arg6)) shapeCasts_S64_S1x64 := by
  refine (between_brow (W2 m ρ c)).trans ?_
  rw [mid_arg6]

/-! ## The result buffer at the last boundary -/

theorem result_eq (c : Dev nD) : W4 m ρ c (Proc.devRef .tc main_v28)
    = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 5).trans ((Cert.KernelIdeal.Region.final1 (V3 m ρ) c).trans ?_)
  rw [entry1_agg, entry1_h, entry1_degc, entry1_w, entry1_brow]
  rfl

end Cert.KernelIdeal.Run

end
-- ==== Proof.RefLayers.lean ====
/-
  The reference, layer by layer: each of its two layers is the specification's layer of the arrays it is applied to.

  The reference computes (agg + h) / (deg + 1) over the whole arrays, multiplies by the transposed weight matrix
  on the host, adds the bias broadcast over the rows, and clamps the first layer at 0. Read at an entry (r, j)
  this is the specification's formula, with the degrees read through their column layout and the bias through its
  row layout.
-/
import proofs.«148376_j5214090297412_1_alg».proof.Proof.Gen.ReferenceIdeal.Read
import proofs.«148376_j5214090297412_1_alg».proof.Proof.Spec

noncomputable section

open scoped BigOperators

namespace Cert.ReferenceIdeal.Layers

open Cert.ReferenceIdeal Cert.ReferenceIdeal.Gen Cert.ReferenceIdeal.Read Idealize.ShloMosaic Idealize.ShloMosaic.ValueIdx

/-! ## Where each stage reads its operand -/

theorem lidx21 (r : Fin 100000) (j k : Fin 128) : lidx_main_v21 (ix2 r j) k = ix2 r k :=
  funext fun a => Fin.ext (by match a with | ⟨0, _⟩ => rfl | ⟨1, _⟩ => rfl)
theorem ridx21 (r : Fin 100000) (j k : Fin 128) : ridx_main_v21 (ix2 r j) k = ix2 k j :=
  funext fun a => Fin.ext (by match a with | ⟨0, _⟩ => rfl | ⟨1, _⟩ => rfl)
theorem idx20 (k j : Fin 128) : idx_main_v20 (ix2 k j) = ix2 j k :=
  funext fun a => Fin.ext (by match a with | ⟨0, _⟩ => rfl | ⟨1, _⟩ => rfl)
theorem idx18 (r : Fin 100000) (k : Fin 128) : idx_main_v18 (ix2 r k) = ix2 r (0 : Fin 1) :=
  funext fun a => Fin.ext (by match a with | ⟨0, _⟩ => rfl | ⟨1, _⟩ => rfl)
theorem idx23 (r : Fin 100000) (j : Fin 128) : idx_main_v23 (ix2 r j) = ix2 (0 : Fin 1) j :=
  funext fun a => Fin.ext (by match a with | ⟨0, _⟩ => rfl | ⟨1, _⟩ => rfl)

theorem lidx43 (r : Fin 100000) (j : Fin 64) (k : Fin 128) : lidx_main_v43 (ix2 r j) k = ix2 r k :=
  funext fun a => Fin.ext (by match a with | ⟨0, _⟩ => rfl | ⟨1, _⟩ => rfl)
theorem ridx43 (r : Fin 100000) (j : Fin 64) (k : Fin 128) : ridx_main_v43 (ix2 r j) k = ix2 k j :=
  funext fun a => Fin.ext (by match a with | ⟨0, _⟩ => rfl | ⟨1, _⟩ => rfl)
theorem idx42 (k : Fin 128) (j : Fin 64) : idx_main_v42 (ix2 k j) = ix2 j k :=
  funext fun a => Fin.ext (by match a with | ⟨0, _⟩ => rfl | ⟨1, _⟩ => rfl)
theorem idx40 (r : Fin 100000) (k : Fin 128) : idx_main_v40 (ix2 r k) = ix2 r (0 : Fin 1) :=
  funext fun a => Fin.ext (by match a with | ⟨0, _⟩ => rfl | ⟨1, _⟩ => rfl)
theorem idx45 (r : Fin 100000) (j : Fin 64) : idx_main_v45 (ix2 r j) = ix2 (0 : Fin 1) j :=
  funext fun a => Fin.ext (by match a with | ⟨0, _⟩ => rfl | ⟨1, _⟩ => rfl)

/-! ## The two layers -/

/-- The reference's first layer (after its clamp) is the specification's first layer of the neighbour sums of the
    input, the input, the degree column, the first weights and the first bias row. -/
theorem hidden_eq (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal)) :
    val_main_v25 (F := Ideal) x0 x1 x2 x3 x4
      = Cert.Sage.hidden (val_main_v13 (F := Ideal) x0 x1 x2) x0 (val_main_v15 (F := Ideal) x2) x3 (val_main_v22 (F := Ideal) x4) := by
  funext i
  obtain ⟨r, j, rfl⟩ : ∃ (r : Fin 100000) (j : Fin 128), i = ix2 r j := ⟨i 0, i 1, eq_ix2 i⟩
  rw [Cert.Sage.hidden_ix2]
  unfold Cert.Sage.hiddenAt Cert.Sage.mean
  rw [val_main_v25_apply, val_main_v24_apply, val_main_v21_apply, val_main_call0_v0_apply, val_main_call0_cst_apply,
    val_main_v23_apply, idx23]
  refine congrArg₂ max (congrArg₂ (· + ·) (Finset.sum_congr rfl fun k _ => ?_) rfl) rfl
  rw [lidx21, ridx21, val_main_v19_apply, val_main_v20_apply, idx20, val_main_v18_apply, idx18, val_main_v17_apply,
    val_main_v16_apply, val_main_cst_3_apply, val_main_v14_apply]
  rfl

/-- The reference's second layer is the specification's second layer of the neighbour sums of the first layer's
    result, that result, the degree column, the second weights and the second bias row. -/
theorem out_eq (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal))
    (x5 : (⟨S64x128, .f32⟩ : BufTy).Contents (Elt Ideal)) (x6 : (⟨S64, .f32⟩ : BufTy).Contents (Elt Ideal)) :
    val_main_v46 (F := Ideal) x0 x1 x2 x3 x4 x5 x6
      = Cert.Sage.out (val_main_v35 (F := Ideal) x0 x1 x2 x3 x4) (val_main_v25 (F := Ideal) x0 x1 x2 x3 x4)
          (val_main_v37 (F := Ideal) x2) x5 (val_main_v44 (F := Ideal) x6) := by
  funext i
  obtain ⟨r, j, rfl⟩ : ∃ (r : Fin 100000) (j : Fin 64), i = ix2 r j := ⟨i 0, i 1, eq_ix2 i⟩
  rw [Cert.Sage.out_ix2]
  unfold Cert.Sage.outAt Cert.Sage.mean
  rw [val_main_v46_apply, val_main_v43_apply, val_main_v45_apply, idx45]
  refine congrArg₂ (· + ·) (Finset.sum_congr rfl fun k _ => ?_) rfl
  rw [lidx43, ridx43, val_main_v41_apply, val_main_v42_apply, idx42, val_main_v40_apply, idx40, val_main_v39_apply,
    val_main_v38_apply, val_main_cst_7_apply, val_main_v36_apply]
  rfl

end Cert.ReferenceIdeal.Layers

end
-- ==== Proof.Bridge.lean ====
/-
  The two programs compute one function of the arguments.

  Both programs obtain the in-degrees and the neighbour sums by the same host operations on the same arrays, so
  those are carried as they are, never opened. What differs is layout only: the kernel program lays the degrees out
  as a column and each bias as a row by reshaping, the reference by broadcasting along a new axis; either way the
  column holds deg[v] at (v, 0) and the row holds b[j] at (0, j). With that, the kernel program's result — the second
  layer of the first — is the reference's result, layer by layer.
-/
import proofs.«148376_j5214090297412_1_alg».proof.Proof.KernelRun
import proofs.«148376_j5214090297412_1_alg».proof.Proof.RefLayers
import proofs.«148376_j5214090297412_1_alg».proof.Proof.LibKeepdims
import Idealize.ShloMosaic.Lib.ValueLayout

noncomputable section

namespace Cert.Bridge

open Idealize.ShloMosaic Idealize.ShloMosaic.ValueIdx

/-! ## The two layouts of a column and of a row -/

/-- A vector reshaped to a column is the vector broadcast along a new second axis. -/
theorem col_eq {α : Type} (d : (⟨1, ![100000]⟩ : Shape).Idx → α)
    (h : (⟨1, ![100000]⟩ : Shape).ShapeCasts ⟨2, ![100000, 1]⟩)
    (h' : (⟨1, ![100000]⟩ : Shape).BroadcastsInDim ⟨2, ![100000, 1]⟩ ![0]) :
    shapeCast ⟨2, ![100000, 1]⟩ d h = broadcastInDim ⟨2, ![100000, 1]⟩ ![0] h' d := by
  funext i
  obtain ⟨r, u, rfl⟩ : ∃ (r : Fin 100000) (u : Fin 1), i = ix2 r u := ⟨i 0, i 1, eq_ix2 i⟩
  rw [Cert.LibKeepdims.shapeCast_a_a1_apply]
  exact (broadcastInDim_apply _ h' d (ix2 r u) (ix1 r) (fun a => match a with
    | ⟨0, _⟩ => by show r.val = if (100000 : Nat) = 1 then 0 else r.val; rw [if_neg (by decide)])).symm

/-- A vector of 128 reshaped to a row is the vector broadcast along a new first axis. -/
theorem row128_eq {α : Type} (b : (⟨1, ![128]⟩ : Shape).Idx → α)
    (h : (⟨1, ![128]⟩ : Shape).ShapeCasts ⟨2, ![1, 128]⟩)
    (h' : (⟨1, ![128]⟩ : Shape).BroadcastsInDim ⟨2, ![1, 128]⟩ ![1]) :
    shapeCast ⟨2, ![1, 128]⟩ b h = broadcastInDim ⟨2, ![1, 128]⟩ ![1] h' b := by
  funext i
  obtain ⟨u, j, rfl⟩ : ∃ (u : Fin 1) (j : Fin 128), i = ix2 u j := ⟨i 0, i 1, eq_ix2 i⟩
  rw [shapeCast_a_1a_apply]
  exact (broadcastInDim_apply _ h' b (ix2 u j) (ix1 j) (fun a => match a with
    | ⟨0, _⟩ => by show j.val = if (128 : Nat) = 1 then 0 else j.val; rw [if_neg (by decide)])).symm

/-- A vector of 64 reshaped to a row is the vector broadcast along a new first axis. -/
theorem row64_eq {α : Type} (b : (⟨1, ![64]⟩ : Shape).Idx → α)
    (h : (⟨1, ![64]⟩ : Shape).ShapeCasts ⟨2, ![1, 64]⟩)
    (h' : (⟨1, ![64]⟩ : Shape).BroadcastsInDim ⟨2, ![1, 64]⟩ ![1]) :
    shapeCast ⟨2, ![1, 64]⟩ b h = broadcastInDim ⟨2, ![1, 64]⟩ ![1] h' b := by
  funext i
  obtain ⟨u, j, rfl⟩ : ∃ (u : Fin 1) (j : Fin 64), i = ix2 u j := ⟨i 0, i 1, eq_ix2 i⟩
  rw [shapeCast_a_1a_apply]
  exact (broadcastInDim_apply _ h' b (ix2 u j) (ix1 j) (fun a => match a with
    | ⟨0, _⟩ => by show j.val = if (64 : Nat) = 1 then 0 else j.val; rw [if_neg (by decide)])).symm

/-! ## The shared host operations: one term on both sides -/

open Cert.ReferenceIdeal.Read in
/-- The in-degrees: the same scatter-add of ones. -/
theorem deg_eq (dst : (⟨1, ![1600000]⟩ : Shape).Idx → BitVec 32) :
    Cert.KernelIdeal.Host.degOf (F := Ideal) dst = val_main_v3 (F := Ideal) dst := by
  unfold Cert.KernelIdeal.Host.degOf val_main_v3 val_main_v1 val_main_cst_0 val_main_v2 val_main_v0 val_main_cst
  rfl

open Cert.ReferenceIdeal.Read in
/-- The neighbour sums of the input: the same gather and scatter-add. -/
theorem agg1_eq (x : (⟨2, ![100000, 128]⟩ : Shape).Idx → EReal) (src dst : (⟨1, ![1600000]⟩ : Shape).Idx → BitVec 32) :
    Cert.KernelIdeal.Host.aggOf (F := Ideal) x src dst = val_main_v13 (F := Ideal) x src dst := by
  unfold Cert.KernelIdeal.Host.aggOf val_main_v13 val_main_v11 val_main_cst_2 val_main_v12 val_main_v10 val_main_v9 val_main_v8
    val_main_v5 val_main_v7 val_main_v4 val_main_v6 val_main_c val_main_c_1
  rfl

open Cert.ReferenceIdeal.Read in
/-- The neighbour sums of the first layer's result: the same gather and scatter-add, of that result. -/
theorem agg2_eq (x : (⟨2, ![100000, 128]⟩ : Shape).Idx → EReal) (src dst : (⟨1, ![1600000]⟩ : Shape).Idx → BitVec 32)
    (W1 : (⟨2, ![128, 128]⟩ : Shape).Idx → EReal) (b1 : (⟨1, ![128]⟩ : Shape).Idx → EReal) :
    val_main_v35 (F := Ideal) x src dst W1 b1
      = Cert.KernelIdeal.Host.aggOf (F := Ideal) (val_main_v25 (F := Ideal) x src dst W1 b1) src dst := by
  unfold Cert.KernelIdeal.Host.aggOf val_main_v35 val_main_v33 val_main_cst_6 val_main_v34 val_main_v32 val_main_v31 val_main_v30
    val_main_v27 val_main_v29 val_main_v26 val_main_v28 val_main_c_4 val_main_c_5
  rfl

open Cert.ReferenceIdeal.Read in
/-- The degree column, in the kernel program's layout and in the reference's. -/
theorem degcol_eq (dst : (⟨1, ![1600000]⟩ : Shape).Idx → BitVec 32) :
    Cert.KernelIdeal.Run.degCol dst = val_main_v15 (F := Ideal) dst := by
  unfold Cert.KernelIdeal.Run.degCol val_main_v15
  rw [deg_eq]
  exact col_eq _ _ _

open Cert.ReferenceIdeal.Read in
/-- The reference lays the degree column out twice, the same way. -/
theorem degcol2_eq (dst : (⟨1, ![1600000]⟩ : Shape).Idx → BitVec 32) :
    val_main_v37 (F := Ideal) dst = val_main_v15 (F := Ideal) dst := by
  unfold val_main_v37 val_main_v15
  rfl

/-! ## The result -/

open Cert.ReferenceIdeal.Read in
/-- The first layer's array, as the kernel program computes it and as the reference does. -/
theorem hid_eq (x : (⟨2, ![100000, 128]⟩ : Shape).Idx → EReal) (src dst : (⟨1, ![1600000]⟩ : Shape).Idx → BitVec 32)
    (W1 : (⟨2, ![128, 128]⟩ : Shape).Idx → EReal) (b1 : (⟨1, ![128]⟩ : Shape).Idx → EReal) :
    Cert.KernelIdeal.Run.hid x src dst W1 b1 = val_main_v25 (F := Ideal) x src dst W1 b1 := by
  rw [Cert.ReferenceIdeal.Layers.hidden_eq]
  unfold Cert.KernelIdeal.Run.hid val_main_v22
  rw [agg1_eq, degcol_eq, row128_eq]

open Cert.ReferenceIdeal.Read in
/-- The kernel program's result is the reference's, as functions of the arguments. -/
theorem value_eq (x : (⟨2, ![100000, 128]⟩ : Shape).Idx → EReal) (src dst : (⟨1, ![1600000]⟩ : Shape).Idx → BitVec 32)
    (W1 : (⟨2, ![128, 128]⟩ : Shape).Idx → EReal) (b1 : (⟨1, ![128]⟩ : Shape).Idx → EReal)
    (W2 : (⟨2, ![64, 128]⟩ : Shape).Idx → EReal) (b2 : (⟨1, ![64]⟩ : Shape).Idx → EReal) :
    Cert.KernelIdeal.Run.value x src dst W1 b1 W2 b2 = val_main_v46 (F := Ideal) x src dst W1 b1 W2 b2 := by
  rw [Cert.ReferenceIdeal.Layers.out_eq]
  unfold Cert.KernelIdeal.Run.value val_main_v44
  rw [hid_eq, agg2_eq, degcol_eq, degcol2_eq, row64_eq]

end Cert.Bridge

end
-- ==== Proof.lean ====
/-
  Two layers of mean-aggregating graph convolution: a tiled kernel against its array-level reference.

  Each layer takes node features h, adds to every node the sum of its in-neighbours' features, divides by the
  in-degree plus one, multiplies by a weight matrix transposed and adds a bias; the first layer is clamped at 0
  and feeds the second. The kernel program computes the neighbour sums and the degrees on the host and does the
  dense part of each layer in a kernel over blocks of 5000 nodes, rounding to a shorter format before the
  product; the reference does everything on whole arrays. On the extended reals the rounding is the identity, a
  product accumulated from zero is the plain sum over the shared coordinate on both sides, and the twenty row
  blocks tile the result, so both programs compute the same function of the arguments (Proof/Bridge.lean): no
  law of arithmetic beyond that is used, and the precondition is never opened.

  The three frames are the generated ones (the reference's is its generated run with the result dropped), and the
  idealisation rewrote nothing, so that conjunct is trivial.
-/
import proofs.«148376_j5214090297412_1_alg».proof.Defs
import proofs.«148376_j5214090297412_1_alg».proof.Proof.Gen.Kernel
import proofs.«148376_j5214090297412_1_alg».proof.Proof.Gen.Kernel.Skeleton
import proofs.«148376_j5214090297412_1_alg».proof.Proof.Gen.Kernel.Launch
import proofs.«148376_j5214090297412_1_alg».proof.Proof.Gen.Kernel.Points
import proofs.«148376_j5214090297412_1_alg».proof.Proof.Gen.Kernel.Frame
import proofs.«148376_j5214090297412_1_alg».proof.Proof.Gen.KernelIdeal
import proofs.«148376_j5214090297412_1_alg».proof.Proof.Gen.KernelIdeal.Skeleton
import proofs.«148376_j5214090297412_1_alg».proof.Proof.Gen.KernelIdeal.Launch
import proofs.«148376_j5214090297412_1_alg».proof.Proof.Gen.KernelIdeal.Points
import proofs.«148376_j5214090297412_1_alg».proof.Proof.Gen.KernelIdeal.Frame
import proofs.«148376_j5214090297412_1_alg».proof.Proof.Gen.ReferenceIdeal
import proofs.«148376_j5214090297412_1_alg».proof.Proof.Gen.ReferenceIdeal.Run
import proofs.«148376_j5214090297412_1_alg».proof.Proof.Gen.ReferenceIdeal.Read
import proofs.«148376_j5214090297412_1_alg».proof.Proof.Gen.Pre_finite_inputs
import proofs.«148376_j5214090297412_1_alg».proof.Proof.FrameResult
import proofs.«148376_j5214090297412_1_alg».proof.Proof.KernelRun
import proofs.«148376_j5214090297412_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result array at one function of the
    arguments: the kernel program by its run through both regions, the reference by its run, the two functions
    equal layer by layer. -/
theorem algebraic : Cert.algebraic_KernelIdeal_ReferenceIdeal := by
  intro m ρ m' ρ' _ hagree
  refine ⟨fun c => Cert.KernelIdeal.Run.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Run.result_eq m ρ c), (h c).2⟩)
      (Cert.KernelIdeal.GenP.frame_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [Cert.ReferenceIdeal.Read.val_main_v46_eq, e0, e1, e2, e3, e4, e5, e6]
    exact (Cert.Bridge.value_eq _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
